-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x256x512 : Shape := ⟨4, ![2, 32, 256, 512]⟩
abbrev S2x288x256x512 : Shape := ⟨4, ![2, 288, 256, 512]⟩
abbrev S_ : Shape := ⟨0, ![]⟩

class Facts : Prop where
  bcast_S_S2x32x256x512 : S_.BroadcastsInDim S2x32x256x512 (![] : Fin 0 → Fin S2x32x256x512.rank)
  reducesTo_S2x32x256x512_S_d0_1_2_3 : S2x32x256x512.ReducesTo [0, 1, 2, 3] S_
  h_S_ : 0 < S_.numel
  bcast_S_S2x288x256x512 : S_.BroadcastsInDim S2x288x256x512 (![] : Fin 0 → Fin S2x288x256x512.rank)
  reducesTo_S2x288x256x512_S_d0_1_2_3 : S2x288x256x512.ReducesTo [0, 1, 2, 3] S_

variable [Facts]

def fn {F : FTy → Type} [FloatOps F] (main_arg0 : FVec F S2x32x256x512 .f32) (main_arg1 : FVec F S2x288x256x512 .f32) : IVec S_ 1 :=
  let main_v0 : FVec F S2x32x256x512 .f32 := Host.absf main_arg0
  let main_cst : FVec F S_ .f32 := constant S_ .f32 0x7F800000#32
  let main_v1 : FVec F S2x32x256x512 .f32 := broadcastInDim S2x32x256x512 ![] bcast_S_S2x32x256x512 main_cst
  let main_v2 : IVec S2x32x256x512 1 := cmpf .olt main_v0 main_v1
  let main_c : IVec S_ 1 := constantI S_ 1 1#1
  let main_v3 : IVec S_ 1 := (fun x v => Host.reduce IntOp.andi x v reducesTo_S2x32x256x512_S_d0_1_2_3 h_S_) main_v2 main_c
  let main_v4 : FVec F S2x288x256x512 .f32 := Host.absf main_arg1
  let main_cst_0 : FVec F S_ .f32 := constant S_ .f32 0x7F800000#32
  let main_v5 : FVec F S2x288x256x512 .f32 := broadcastInDim S2x288x256x512 ![] bcast_S_S2x288x256x512 main_cst_0
  let main_v6 : IVec S2x288x256x512 1 := cmpf .olt main_v4 main_v5
  let main_c_1 : IVec S_ 1 := constantI S_ 1 1#1
  let main_v7 : IVec S_ 1 := (fun x v => Host.reduce IntOp.andi x v reducesTo_S2x288x256x512_S_d0_1_2_3 h_S_) main_v6 main_c_1
  let main_v8 : IVec S_ 1 := andi main_v3 main_v7
  main_v8
-- ==== Kernel.lean ====
abbrev S2x32x256x512 : Shape := ⟨4, ![2, 32, 256, 512]⟩
abbrev S2x288x256x512 : Shape := ⟨4, ![2, 288, 256, 512]⟩
abbrev S_ : Shape := ⟨0, ![]⟩
abbrev S2x32x258x514 : Shape := ⟨4, ![2, 32, 258, 514]⟩
abbrev S1x2x258x514 : Shape := ⟨4, ![1, 2, 258, 514]⟩
abbrev S1x18x256x512 : Shape := ⟨4, ![1, 18, 256, 512]⟩
abbrev S1x2x256x512 : Shape := ⟨4, ![1, 2, 256, 512]⟩
abbrev S2x258x514 : Shape := ⟨3, ![2, 258, 514]⟩
abbrev S18x256x512 : Shape := ⟨3, ![18, 256, 512]⟩
abbrev S2x9x256x512 : Shape := ⟨4, ![2, 9, 256, 512]⟩
abbrev S2x256x512 : Shape := ⟨3, ![2, 256, 512]⟩
abbrev S2x1x256x512 : Shape := ⟨4, ![2, 1, 256, 512]⟩

abbrev nBuf : Space → Nat
  | .hbm => 6
  | .vmem => 6
  | .smem => 0
  | _ => 0

abbrev bufTy : (tb : Table) → Fin (tcTables nBuf tb) → BufTy
  | .hbm, ⟨0, _⟩ => ⟨S2x32x256x512, .f32⟩
  | .hbm, ⟨1, _⟩ => ⟨S2x288x256x512, .f32⟩
  | .hbm, ⟨2, _⟩ => ⟨S_, .i32⟩
  | .hbm, ⟨3, _⟩ => ⟨S_, .f32⟩
  | .hbm, ⟨4, _⟩ => ⟨S2x32x258x514, .f32⟩
  | .hbm, ⟨5, _⟩ => ⟨S2x32x256x512, .f32⟩
  | .local _ .vmem, ⟨0, _⟩ => ⟨S1x2x258x514, .f32⟩
  | .local _ .vmem, ⟨1, _⟩ => ⟨S1x2x258x514, .f32⟩
  | .local _ .vmem, ⟨2, _⟩ => ⟨S1x18x256x512, .f32⟩
  | .local _ .vmem, ⟨3, _⟩ => ⟨S1x18x256x512, .f32⟩
  | .local _ .vmem, ⟨4, _⟩ => ⟨S1x2x256x512, .f32⟩
  | .local _ .vmem, ⟨5, _⟩ => ⟨S1x2x256x512, .f32⟩
  | _, _ => ⟨S2x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x258x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x18x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S2x32x256x512_S2x32x258x514_000_000_110_110 : S2x32x256x512.Pads (![0, 0, 1, 1] : Fin 4 → Nat) ![0, 0, 1, 1] ![0, 0, 0, 0] S2x32x258x514
  h_S_ : 0 < S_.numel
  inb_S1x2x258x514_S1x2x258x514_0_0_0_0 : ∀ a, (![0, 0, 0, 0] : Fin 4 → Nat) a + S1x2x258x514.size a ≤ S1x2x258x514.size a
  h_S1x2x258x514 : 0 < S1x2x258x514.numel
  shapeCasts_S1x2x258x514_S2x258x514 : S1x2x258x514.ShapeCasts S2x258x514
  inb_S1x18x256x512_S1x18x256x512_0_0_0_0 : ∀ a, (![0, 0, 0, 0] : Fin 4 → Nat) a + S1x18x256x512.size a ≤ S1x18x256x512.size a
  h_S1x18x256x512 : 0 < S1x18x256x512.numel
  shapeCasts_S1x18x256x512_S18x256x512 : S1x18x256x512.ShapeCasts S18x256x512
  shapeCasts_S18x256x512_S2x9x256x512 : S18x256x512.ShapeCasts S2x9x256x512
  slices_S2x258x514_o0_0_0_S2x256x512 : S2x258x514.Slices ![0, 0, 0] S2x256x512
  slices_S2x9x256x512_o0_0_0_0_S2x1x256x512 : S2x9x256x512.Slices ![0, 0, 0, 0] S2x1x256x512
  shapeCasts_S2x1x256x512_S2x256x512 : S2x1x256x512.ShapeCasts S2x256x512
  slices_S2x258x514_o0_0_1_S2x256x512 : S2x258x514.Slices ![0, 0, 1] S2x256x512
  slices_S2x9x256x512_o0_1_0_0_S2x1x256x512 : S2x9x256x512.Slices ![0, 1, 0, 0] S2x1x256x512
  slices_S2x258x514_o0_0_2_S2x256x512 : S2x258x514.Slices ![0, 0, 2] S2x256x512
  slices_S2x9x256x512_o0_2_0_0_S2x1x256x512 : S2x9x256x512.Slices ![0, 2, 0, 0] S2x1x256x512
  slices_S2x258x514_o0_1_0_S2x256x512 : S2x258x514.Slices ![0, 1, 0] S2x256x512
  slices_S2x9x256x512_o0_3_0_0_S2x1x256x512 : S2x9x256x512.Slices ![0, 3, 0, 0] S2x1x256x512
  slices_S2x258x514_o0_1_1_S2x256x512 : S2x258x514.Slices ![0, 1, 1] S2x256x512
  slices_S2x9x256x512_o0_4_0_0_S2x1x256x512 : S2x9x256x512.Slices ![0, 4, 0, 0] S2x1x256x512
  slices_S2x258x514_o0_1_2_S2x256x512 : S2x258x514.Slices ![0, 1, 2] S2x256x512
  slices_S2x9x256x512_o0_5_0_0_S2x1x256x512 : S2x9x256x512.Slices ![0, 5, 0, 0] S2x1x256x512
  slices_S2x258x514_o0_2_0_S2x256x512 : S2x258x514.Slices ![0, 2, 0] S2x256x512
  slices_S2x9x256x512_o0_6_0_0_S2x1x256x512 : S2x9x256x512.Slices ![0, 6, 0, 0] S2x1x256x512
  slices_S2x258x514_o0_2_1_S2x256x512 : S2x258x514.Slices ![0, 2, 1] S2x256x512
  slices_S2x9x256x512_o0_7_0_0_S2x1x256x512 : S2x9x256x512.Slices ![0, 7, 0, 0] S2x1x256x512
  slices_S2x258x514_o0_2_2_S2x256x512 : S2x258x514.Slices ![0, 2, 2] S2x256x512
  slices_S2x9x256x512_o0_8_0_0_S2x1x256x512 : S2x9x256x512.Slices ![0, 8, 0, 0] S2x1x256x512
  inb_S1x2x256x512_S1x2x256x512_0_0_0_0 : ∀ a, (![0, 0, 0, 0] : Fin 4 → Nat) a + S1x2x256x512.size a ≤ S1x2x256x512.size a
  h_S1x2x256x512 : 0 < S1x2x256x512.numel
  shapeCasts_S1x2x256x512_S2x256x512 : S1x2x256x512.ShapeCasts S2x256x512
  shapeCasts_S2x256x512_S1x2x256x512 : S2x256x512.ShapeCasts S1x2x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x258x514.size a ≤ S2x32x258x514.size a
  hwx0_0 : ∀ i : grid0.Coords, EltTy.bits .f32 = 32 ∨ (Rect.block (s := S2x32x258x514) S1x2x258x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x18x256x512.size a ≤ S2x288x256x512.size a
  hwx0_1 : ∀ i : grid0.Coords, EltTy.bits .f32 = 32 ∨ (Rect.block (s := S2x288x256x512) S1x18x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x256x512.size a ≤ S2x32x256x512.size a
  hwx0_2 : ∀ i : grid0.Coords, EltTy.bits .f32 = 32 ∨ (Rect.block (s := S2x32x256x512) S1x2x256x512.size (cc0_transform_2 i) (hinb0_2 i)).WholeWords (EltTy.packing .f32)

variable [Facts₀]

abbrev win0_0 : Pipeline.Window sig grid0 :=
  Pipeline.Window.ofSpec (Memref.whole main_v0) S1x2x258x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x18x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x32x256x512 : Shape := ⟨4, ![2, 32, 256, 512]⟩
abbrev S2x288x256x512 : Shape := ⟨4, ![2, 288, 256, 512]⟩
abbrev S_ : Shape := ⟨0, ![]⟩
abbrev S2x32x258x514 : Shape := ⟨4, ![2, 32, 258, 514]⟩
abbrev S2x32x1x256x512 : Shape := ⟨5, ![2, 32, 1, 256, 512]⟩
abbrev S2x32x9x256x512 : Shape := ⟨5, ![2, 32, 9, 256, 512]⟩

abbrev nBuf : Space → Nat
  | .hbm => 28
  | .vmem => 0
  | .smem => 0
  | _ => 0

abbrev bufTy : (tb : Table) → Fin (tcTables nBuf tb) → BufTy
  | .hbm, ⟨0, _⟩ => ⟨S2x32x256x512, .f32⟩
  | .hbm, ⟨1, _⟩ => ⟨S2x288x256x512, .f32⟩
  | .hbm, ⟨2, _⟩ => ⟨S_, .i32⟩
  | .hbm, ⟨3, _⟩ => ⟨S_, .f32⟩
  | .hbm, ⟨4, _⟩ => ⟨S2x32x258x514, .f32⟩
  | .hbm, ⟨5, _⟩ => ⟨S2x32x256x512, .f32⟩
  | .hbm, ⟨6, _⟩ => ⟨S2x32x256x512, .f32⟩
  | .hbm, ⟨7, _⟩ => ⟨S2x32x256x512, .f32⟩
  | .hbm, ⟨8, _⟩ => ⟨S2x32x256x512, .f32⟩
  | .hbm, ⟨9, _⟩ => ⟨S2x32x256x512, .f32⟩
  | .hbm, ⟨10, _⟩ => ⟨S2x32x256x512, .f32⟩
  | .hbm, ⟨11, _⟩ => ⟨S2x32x256x512, .f32⟩
  | .hbm, ⟨12, _⟩ => ⟨S2x32x256x512, .f32⟩
  | .hbm, ⟨13, _⟩ => ⟨S2x32x256x512, .f32⟩
  | .hbm, ⟨14, _⟩ => ⟨S2x32x1x256x512, .f32⟩
  | .hbm, ⟨15, _⟩ => ⟨S2x32x1x256x512, .f32⟩
  | .hbm, ⟨16, _⟩ => ⟨S2x32x1x256x512, .f32⟩
  | .hbm, ⟨17, _⟩ => ⟨S2x32x1x256x512, .f32⟩
  | .hbm, ⟨18, _⟩ => ⟨S2x32x1x256x512, .f32⟩
  | .hbm, ⟨19, _⟩ => ⟨S2x32x1x256x512, .f32⟩
  | .hbm, ⟨20, _⟩ => ⟨S2x32x1x256x512, .f32⟩
  | .hbm, ⟨21, _⟩ => ⟨S2x32x1x256x512, .f32⟩
  | .hbm, ⟨22, _⟩ => ⟨S2x32x1x256x512, .f32⟩
  | .hbm, ⟨23, _⟩ => ⟨S2x32x9x256x512, .f32⟩
  | .hbm, ⟨24, _⟩ => ⟨S2x32x9x256x512, .f32⟩
  | .hbm, ⟨25, _⟩ => ⟨S2x32x9x256x512, .f32⟩
  | .hbm, ⟨26, _⟩ => ⟨S_, .f32⟩
  | .hbm, ⟨27, _⟩ => ⟨S2x32x256x512, .f32⟩
  | _, _ => ⟨S2x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩

abbrev nD : Nat := 1
abbrev τ : Topo := Topo.v7x

variable {F : FTy → Type} [FloatOps F]

class Facts₀ : Prop where
  pads_S2x32x256x512_S2x32x258x514_000_000_110_110 : S2x32x256x512.Pads (![0, 0, 1, 1] : Fin 4 → Nat) ![0, 0, 1, 1] ![0, 0, 0, 0] S2x32x258x514
  h_S_ : 0 < S_.numel
  slices_S2x32x258x514_S2x32x256x512_0_0_0_0 : S2x32x258x514.Slices ![0, 0, 0, 0] S2x32x256x512
  slices_S2x32x258x514_S2x32x256x512_0_0_0_1 : S2x32x258x514.Slices ![0, 0, 0, 1] S2x32x256x512
  slices_S2x32x258x514_S2x32x256x512_0_0_0_2 : S2x32x258x514.Slices ![0, 0, 0, 2] S2x32x256x512
  slices_S2x32x258x514_S2x32x256x512_0_0_1_0 : S2x32x258x514.Slices ![0, 0, 1, 0] S2x32x256x512
  slices_S2x32x258x514_S2x32x256x512_0_0_1_1 : S2x32x258x514.Slices ![0, 0, 1, 1] S2x32x256x512
  slices_S2x32x258x514_S2x32x256x512_0_0_1_2 : S2x32x258x514.Slices ![0, 0, 1, 2] S2x32x256x512
  slices_S2x32x258x514_S2x32x256x512_0_0_2_0 : S2x32x258x514.Slices ![0, 0, 2, 0] S2x32x256x512
  slices_S2x32x258x514_S2x32x256x512_0_0_2_1 : S2x32x258x514.Slices ![0, 0, 2, 1] S2x32x256x512
  slices_S2x32x258x514_S2x32x256x512_0_0_2_2 : S2x32x258x514.Slices ![0, 0, 2, 2] S2x32x256x512
  bcast_S2x32x256x512_S2x32x1x256x512_0_1_3_4 : S2x32x256x512.BroadcastsInDim S2x32x1x256x512 (![0, 1, 3, 4] : Fin 4 → Fin S2x32x1x256x512.rank)
  concatenates_S2x32x1x256x512_S2x32x1x256x512_S2x32x1x256x512_S2x32x1x256x512_S2x32x1x256x512_S2x32x1x256x512_S2x32x1x256x512_S2x32x1x256x512_S2x32x1x256x512_S2x32x9x256x512_d2 : Shape.Concatenates [S2x32x1x256x512, S2x32x1x256x512, S2x32x1x256x512, S2x32x1x256x512, S2x32x1x256x512, S2x32x1x256x512, S2x32x1x256x512, S2x32x1x256x512, S2x32x1x256x512] S2x32x9x256x512 2
  shapeCasts_S2x288x256x512_S2x32x9x256x512 : S2x288x256x512.ShapeCasts S2x32x9x256x512
  reducesTo_S2x32x9x256x512_S2x32x256x512_d2 : S2x32x9x256x512.ReducesTo [2] S2x32x256x512

variable [Facts₀]

class Facts : Prop extends Facts₀ where

variable [Facts]
-- ==== Proof.TapSum.lean ====
/-
  The per-pixel 3×3 depthwise convolution, as ONE function of the zero-padded input and of the tap array.

  For a batch entry `b`, a channel `c` and a pixel `(h, w)`, the result is the sum over the nine taps `k = 3·i + j`
  (`i, j < 3`) of the padded input at row `h + i`, column `w + j` of plane `(b, c)`, times the tap array's plane
  `9·c + k` at the pixel `(h, w)`. Both programs compute this sum; they differ only in how the nine products are
  grouped, and the extended reals' addition is associative and commutative with no finiteness asked.

  This module names the two index maps, the sum, its nine-term expansion, and the two lemmas that recognise an index
  of either array from its coordinates (so that each side's index arithmetic is one `omega` per axis).
-/
import Idealize.ShloMosaic.PureOps.Ideal
import Idealize.ShloMosaic.Lib.ValueIdx

noncomputable section

namespace Cert.LocalConv

open Idealize.ShloMosaic Idealize.ShloMosaic.ValueIdx

/-- The input padded by one zero pixel on each side of its two spatial axes. -/
abbrev Padded : Shape := ⟨4, ![2, 32, 258, 514]⟩
/-- The taps: nine planes per channel, one value per pixel. -/
abbrev Taps : Shape := ⟨4, ![2, 288, 256, 512]⟩
/-- The result: one value per batch entry, channel and pixel. -/
abbrev Pixels : Shape := ⟨4, ![2, 32, 256, 512]⟩

/-- Where tap `k` of the window on pixel `(h, w)` reads the padded plane `(b, c)`: row `h + k / 3`, column `w + k % 3`. -/
def padAt (b : Fin 2) (c : Fin 32) (h : Fin 256) (w : Fin 512) (k : Fin 9) : Padded.Idx :=
  ix4 b c (⟨h.val + k.val / 3, by have := h.isLt; have := k.isLt; omega⟩ : Fin 258)
    (⟨w.val + k.val % 3, by have := w.isLt; have := k.isLt; omega⟩ : Fin 514)

/-- Where tap `k` of channel `c` sits in the tap array: plane `9·c + k`, at the pixel itself. -/
def tapAt (b : Fin 2) (c : Fin 32) (h : Fin 256) (w : Fin 512) (k : Fin 9) : Taps.Idx :=
  ix4 b (⟨9 * c.val + k.val, by have := c.isLt; have := k.isLt; omega⟩ : Fin 288) h w

/-- The convolution: at each pixel the nine products of a padded-input neighbour and its tap, added. -/
def conv (xp : Padded.Idx → EReal) (wt : Taps.Idx → EReal) : Pixels.Idx → EReal := fun i =>
  ∑ k : Fin 9, xp (padAt (i 0) (i 1) (i 2) (i 3) k) * wt (tapAt (i 0) (i 1) (i 2) (i 3) k)

/-- An index of the padded array whose coordinates are those of `padAt` is `padAt`. -/
theorem padAt_eq (b : Fin 2) (c : Fin 32) (h : Fin 256) (w : Fin 512) (k : Fin 9) (j : Padded.Idx)
    (h0 : (j 0).val = b.val) (h1 : (j 1).val = c.val) (h2 : (j 2).val = h.val + k.val / 3)
    (h3 : (j 3).val = w.val + k.val % 3) : j = padAt b c h w k := by
  funext a
  apply Fin.ext
  match a with
  | ⟨0, _⟩ => exact h0
  | ⟨1, _⟩ => exact h1
  | ⟨2, _⟩ => exact h2
  | ⟨3, _⟩ => exact h3

/-- An index of the tap array whose coordinates are those of `tapAt` is `tapAt`. -/
theorem tapAt_eq (b : Fin 2) (c : Fin 32) (h : Fin 256) (w : Fin 512) (k : Fin 9) (j : Taps.Idx)
    (h0 : (j 0).val = b.val) (h1 : (j 1).val = 9 * c.val + k.val) (h2 : (j 2).val = h.val)
    (h3 : (j 3).val = w.val) : j = tapAt b c h w k := by
  funext a
  apply Fin.ext
  match a with
  | ⟨0, _⟩ => exact h0
  | ⟨1, _⟩ => exact h1
  | ⟨2, _⟩ => exact h2
  | ⟨3, _⟩ => exact h3

/-- A sum over the nine taps, written out in the order of the taps and grouped from the left. -/
theorem sum_nine (f : Fin 9 → EReal) :
    ∑ k : Fin 9, f k = f 0 + f 1 + f 2 + f 3 + f 4 + f 5 + f 6 + f 7 + f 8 := by
  rw [Fin.sum_univ_castSucc, Fin.sum_univ_eight]
  rfl

end Cert.LocalConv

end
-- ==== Proof.BlockTaps.lean ====
/-
  What the kernel's body stores, read at an index of the output block.

  The body loads the padded-input block `[1, 2, 258, 514]` (two channels' padded planes) and the tap block
  `[1, 18, 256, 512]` (those two channels' nine tap planes each), drops the leading unit axis of both, views the taps as
  `[2, 9, 256, 512]`, and accumulates from zero, tap by tap, the product of the padded block shifted by `(k / 3, k % 3)`
  with tap plane `k`. At the block index `(0, p, r, s)` that is the sum over the nine taps of the padded block at
  `(0, p, r + k / 3, s + k % 3)` times the tap block at `(0, 9·p + k, r, s)`: the leading zero of the accumulator is the
  additive unit of the extended reals, and the left-nested sum is the sum over `Fin 9` written out.
-/
import proofs.«136646_j7086696038450_1_alg».proof.Proof.Gen.KernelIdeal.Frame
import proofs.«136646_j7086696038450_1_alg».proof.Proof.TapSum
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- Where tap `k` of the window on `(r, s)` reads the padded-input block's plane `p`. -/
def nbrAt (p : Fin 2) (r : Fin 256) (s : Fin 512) (k : Fin 9) : S1x2x258x514.Idx :=
  ix4 (0 : Fin 1) p (⟨r.val + k.val / 3, by have := r.isLt; have := k.isLt; omega⟩ : Fin 258)
    (⟨s.val + k.val % 3, by have := s.isLt; have := k.isLt; omega⟩ : Fin 514)

/-- Where tap `k` of the block's channel `p` sits in the tap block: plane `9·p + k`, at the pixel. -/
def wgtAt (p : Fin 2) (r : Fin 256) (s : Fin 512) (k : Fin 9) : S1x18x256x512.Idx :=
  ix4 (0 : Fin 1) (⟨9 * p.val + k.val, by have := p.isLt; have := k.isLt; omega⟩ : Fin 18) r s

theorem nbrAt_row (p : Fin 2) (r : Fin 256) (s : Fin 512) (k : Fin 9) (o : Nat) (ho : k.val / 3 = o) :
    (nbrAt p r s k 2).val = o + r.val := by subst ho; exact Nat.add_comm _ _
theorem nbrAt_col (p : Fin 2) (r : Fin 256) (s : Fin 512) (k : Fin 9) (o : Nat) (ho : k.val % 3 = o) :
    (nbrAt p r s k 3).val = o + s.val := by subst ho; exact Nat.add_comm _ _
theorem wgtAt_plane (p : Fin 2) (r : Fin 256) (s : Fin 512) (k : Fin 9) (kk : Nat) (hk : k.val = kk) :
    (wgtAt p r s k 1).val = 9 * p.val + kk := by subst hk; rfl

theorem hz4 : (![0, 0, 0, 0] : Fin 4 → Nat) = fun _ => 0 := funext fun a => by fin_cases a <;> rfl

/-- The one store covers the output block, and both loads read their whole blocks: what the body leaves is its payload of
    the two blocks. -/
theorem out_eq {F : FTy → Type} [FloatOps F] (x0 : Vec F S1x2x258x514 .f32) (x1 : Vec F S1x18x256x512 .f32) :
    out0_2 x0 x1 = k0_pay1 (k0_pay4 x0 x1) (k0_pay5 x0) (k0_pay6 x1) := by
  unfold out0_2
  rw [View.canon_unit_zero hz4]
  simp only [View.ld_unit_zero (S := S1x2x258x514) hz4, View.ld_unit_zero (S := S1x18x256x512) hz4]

/-- The padded block without its unit axis, shifted by `(o1, o2)` and read at `(p, r, s)`, is the block at
    `(0, p, o1 + r, o2 + s)`. -/
theorem nbr_apply (x0 : Vec Ideal S1x2x258x514 .f32) (o1 o2 : Nat) (h : S2x258x514.Slices ![0, o1, o2] S2x256x512)
    (p : Fin 2) (r : Fin 256) (s : Fin 512) (q : S1x2x258x514.Idx)
    (h0 : (q 0).val = 0) (h1 : (q 1).val = p.val) (h2 : (q 2).val = o1 + r.val) (h3 : (q 3).val = o2 + s.val) :
    extractStridedSlice S2x256x512 ![0, o1, o2] (k0_pay2 (F := Ideal) x0) h (ix3 p r s) = x0 q := by
  have hb2 : o1 + r.val < 258 := by have : (q 2).val < 258 := (q 2).isLt; omega
  have hb3 : o2 + s.val < 514 := by have : (q 3).val < 514 := (q 3).isLt; omega
  refine (extractStridedSlice_apply (s := S2x258x514) (t := S2x256x512) ![0, o1, o2] (k0_pay2 (F := Ideal) x0) h (ix3 p r s)
    (ix3 p (⟨o1 + r.val, hb2⟩ : Fin 258) (⟨o2 + s.val, hb3⟩ : Fin 514)) (fun a => ?_)).trans ?_
  · match a with
    | ⟨0, _⟩ => show p.val = 0 + p.val; omega
    | ⟨1, _⟩ => rfl
    | ⟨2, _⟩ => rfl
  · unfold k0_pay2
    refine shapeCast_apply (s := S1x2x258x514) (t := S2x258x514) x0 _ _ q ?_
    rewrite [Shape.rowMajor_val_four, Shape.rowMajor_val_three]
    show (((q 0).val * 2 + (q 1).val) * 258 + (q 2).val) * 514 + (q 3).val = (p.val * 258 + (o1 + r.val)) * 514 + (o2 + s.val)
    rw [h0, h1, h2, h3]; omega

/-- Tap plane `kk` of the tap block viewed `[2, 9, 256, 512]`, read at `(p, r, s)`, is the block at `(0, 9·p + kk, r, s)`. -/
theorem wgt_apply (x1 : Vec Ideal S1x18x256x512 .f32) (kk : Nat) (h : S2x9x256x512.Slices ![0, kk, 0, 0] S2x1x256x512)
    (h' : S2x1x256x512.ShapeCasts S2x256x512) (p : Fin 2) (r : Fin 256) (s : Fin 512) (q : S1x18x256x512.Idx)
    (hk : kk < 9) (h0 : (q 0).val = 0) (h1 : (q 1).val = 9 * p.val + kk) (h2 : (q 2).val = r.val) (h3 : (q 3).val = s.val) :
    shapeCast S2x256x512 (extractStridedSlice S2x1x256x512 ![0, kk, 0, 0] (k0_pay3 (F := Ideal) x1) h) h' (ix3 p r s) = x1 q := by
  have hp : p.val < 2 := p.isLt
  refine (shapeCast_apply (s := S2x1x256x512) (t := S2x256x512) _ h' (ix3 p r s) (ix4 p (0 : Fin 1) r s) ?_).trans ?_
  · rewrite [Shape.rowMajor_val_four, Shape.rowMajor_val_three]
    show ((p.val * 1 + 0) * 256 + r.val) * 512 + s.val = (p.val * 256 + r.val) * 512 + s.val
    omega
  refine (extractStridedSlice_apply (s := S2x9x256x512) (t := S2x1x256x512) ![0, kk, 0, 0] (k0_pay3 (F := Ideal) x1) h (ix4 p (0 : Fin 1) r s)
    (ix4 p (⟨kk, hk⟩ : Fin 9) r s) (fun a => ?_)).trans ?_
  · match a with
    | ⟨0, _⟩ => show p.val = 0 + p.val; omega
    | ⟨1, _⟩ => show kk = kk + 0; rfl
    | ⟨2, _⟩ => show r.val = 0 + r.val; omega
    | ⟨3, _⟩ => show s.val = 0 + s.val; omega
  · unfold k0_pay3
    refine (shapeCast_apply (s := S18x256x512) (t := S2x9x256x512) _ _ (ix4 p (⟨kk, hk⟩ : Fin 9) r s) (ix3 (⟨9 * p.val + kk, by omega⟩ : Fin 18) r s) ?_).trans ?_
    · rewrite [Shape.rowMajor_val_four, Shape.rowMajor_val_three]
      show ((9 * p.val + kk) * 256 + r.val) * 512 + s.val = ((p.val * 9 + kk) * 256 + r.val) * 512 + s.val
      omega
    · refine shapeCast_apply (s := S1x18x256x512) (t := S18x256x512) x1 _ _ q ?_
      rewrite [Shape.rowMajor_val_four, Shape.rowMajor_val_three]
      show (((q 0).val * 18 + (q 1).val) * 256 + (q 2).val) * 512 + (q 3).val = ((9 * p.val + kk) * 256 + r.val) * 512 + s.val
      rw [h0, h1, h2, h3]; omega

/-- The body's payload at the block index `(0, p, r, s)`: the nine products added. -/
theorem block_apply (x0 : Vec Ideal S1x2x258x514 .f32) (x1 : Vec Ideal S1x18x256x512 .f32)
    (p : Fin 2) (r : Fin 256) (s : Fin 512) :
    k0_pay1 (F := Ideal) (k0_pay4 x0 x1) (k0_pay5 x0) (k0_pay6 x1) (ix4 (0 : Fin 1) p r s)
      = ∑ k : Fin 9, x0 (nbrAt p r s k) * x1 (wgtAt p r s k) := by
  rw [Cert.LocalConv.sum_nine]
  unfold k0_pay1 k0_pay4 k0_pay5 k0_pay6
  dsimp only
  refine (shapeCast_apply (s := S2x256x512) (t := S1x2x256x512) _ _ (ix4 (0 : Fin 1) p r s) (ix3 p r s) ?_).trans ?_
  · rewrite [Shape.rowMajor_val_four, Shape.rowMajor_val_three]
    show (p.val * 256 + r.val) * 512 + s.val = (((0 : Nat) * 2 + p.val) * 256 + r.val) * 512 + s.val
    omega
  simp only [addf_apply, mulf_apply, broadcast_apply]
  rw [
    nbr_apply x0 0 0 _ p r s (nbrAt p r s 0) rfl rfl (nbrAt_row p r s 0 0 rfl) (nbrAt_col p r s 0 0 rfl),
    nbr_apply x0 0 1 _ p r s (nbrAt p r s 1) rfl rfl (nbrAt_row p r s 1 0 rfl) (nbrAt_col p r s 1 1 rfl),
    nbr_apply x0 0 2 _ p r s (nbrAt p r s 2) rfl rfl (nbrAt_row p r s 2 0 rfl) (nbrAt_col p r s 2 2 rfl),
    nbr_apply x0 1 0 _ p r s (nbrAt p r s 3) rfl rfl (nbrAt_row p r s 3 1 rfl) (nbrAt_col p r s 3 0 rfl),
    nbr_apply x0 1 1 _ p r s (nbrAt p r s 4) rfl rfl (nbrAt_row p r s 4 1 rfl) (nbrAt_col p r s 4 1 rfl),
    nbr_apply x0 1 2 _ p r s (nbrAt p r s 5) rfl rfl (nbrAt_row p r s 5 1 rfl) (nbrAt_col p r s 5 2 rfl),
    nbr_apply x0 2 0 _ p r s (nbrAt p r s 6) rfl rfl (nbrAt_row p r s 6 2 rfl) (nbrAt_col p r s 6 0 rfl),
    nbr_apply x0 2 1 _ p r s (nbrAt p r s 7) rfl rfl (nbrAt_row p r s 7 2 rfl) (nbrAt_col p r s 7 1 rfl),
    nbr_apply x0 2 2 _ p r s (nbrAt p r s 8) rfl rfl (nbrAt_row p r s 8 2 rfl) (nbrAt_col p r s 8 2 rfl),
    wgt_apply x1 0 _ _ p r s (wgtAt p r s 0) (by decide) rfl (wgtAt_plane p r s 0 0 rfl) rfl rfl,
    wgt_apply x1 1 _ _ p r s (wgtAt p r s 1) (by decide) rfl (wgtAt_plane p r s 1 1 rfl) rfl rfl,
    wgt_apply x1 2 _ _ p r s (wgtAt p r s 2) (by decide) rfl (wgtAt_plane p r s 2 2 rfl) rfl rfl,
    wgt_apply x1 3 _ _ p r s (wgtAt p r s 3) (by decide) rfl (wgtAt_plane p r s 3 3 rfl) rfl rfl,
    wgt_apply x1 4 _ _ p r s (wgtAt p r s 4) (by decide) rfl (wgtAt_plane p r s 4 4 rfl) rfl rfl,
    wgt_apply x1 5 _ _ p r s (wgtAt p r s 5) (by decide) rfl (wgtAt_plane p r s 5 5 rfl) rfl rfl,
    wgt_apply x1 6 _ _ p r s (wgtAt p r s 6) (by decide) rfl (wgtAt_plane p r s 6 6 rfl) rfl rfl,
    wgt_apply x1 7 _ _ p r s (wgtAt p r s 7) (by decide) rfl (wgtAt_plane p r s 7 7 rfl) rfl rfl,
    wgt_apply x1 8 _ _ p r s (wgtAt p r s 8) (by decide) rfl (wgtAt_plane p r s 8 8 rfl) rfl rfl]
  have hc : (Scalar.ofBits (F := Ideal) .f32 0x00000000#32 : EReal) = 0 := Ideal.ofBits_zero_f32
  rw [hc, zero_add]

end Cert.KernelIdeal.Block

end
-- ==== Proof.RefConv.lean ====
/-
  The reference's result, index by index, is the convolution of its own padded input with the tap array.

  The host program pads the input, takes the nine unit-stride slices of the padded array at the offsets `(k / 3, k % 3)`,
  gives each a unit axis and stacks them along it, views the tap array as `[2, 32, 9, 256, 512]`, multiplies, and sums over
  the stacked axis from zero. At the pixel `(b, c, h, w)` the `k`-th summand is therefore the padded array at
  `(b, c, h + k / 3, w + k % 3)` times the tap array at the index with the same row-major position as `(b, c, k, h, w)`,
  which is `(b, 9·c + k, h, w)`; the initial zero is the additive unit.
-/
import proofs.«136646_j7086696038450_1_alg».proof.Proof.Gen.ReferenceIdeal.Read
import proofs.«136646_j7086696038450_1_alg».proof.Proof.TapSum
import Idealize.ShloMosaic.Lib.Pipeline.Value
import Idealize.ShloMosaic.Lib.ValueIdx
import Idealize.ShloMosaic.PureOps.Ideal.Laws

noncomputable section

namespace Cert.ReferenceIdeal.RefConv

open Cert.ReferenceIdeal Cert.ReferenceIdeal.Gen Cert.ReferenceIdeal.Read Idealize.ShloMosaic Idealize.ShloMosaic.ValueIdx Cert.LocalConv

/-- An index of the padded array at the offsets `(o1, o2) = (k / 3, k % 3)` from the pixel is tap `k`'s neighbour. -/
theorem padAt_of_offsets (b : Fin 2) (c : Fin 32) (h : Fin 256) (w : Fin 512) (k : Fin 9) (kk o1 o2 : Nat)
    (hk : k.val = kk) (ho1 : kk / 3 = o1) (ho2 : kk % 3 = o2) (j : Padded.Idx)
    (h0 : (j 0).val = b.val) (h1 : (j 1).val = c.val) (h2 : (j 2).val = o1 + h.val) (h3 : (j 3).val = o2 + w.val) :
    j = padAt b c h w k :=
  padAt_eq b c h w k j h0 h1 (by rw [h2, ← ho1, hk]; exact Nat.add_comm _ _) (by rw [h3, ← ho2, hk]; exact Nat.add_comm _ _)

-- Piece `K` of the stack read at the pixel: the slice at offset `(O1, O2) = (K / 3, K % 3)`, which reads the padded
-- array there (a slice at offset zero reads the coordinate itself, which is zero plus it).
set_option hygiene false in
local macro "stack_case" K:num O1:num O2:num v1:ident a1:ident a0:ident : tactic => `(tactic| (
  refine (concatenate_apply_piece (t := S2x32x9x256x512) (2 : Fin 5)
      ([⟨S2x32x1x256x512, val_main_v10 (F := Ideal) x0⟩, ⟨S2x32x1x256x512, val_main_v11 (F := Ideal) x0⟩, ⟨S2x32x1x256x512, val_main_v12 (F := Ideal) x0⟩, ⟨S2x32x1x256x512, val_main_v13 (F := Ideal) x0⟩, ⟨S2x32x1x256x512, val_main_v14 (F := Ideal) x0⟩, ⟨S2x32x1x256x512, val_main_v15 (F := Ideal) x0⟩, ⟨S2x32x1x256x512, val_main_v16 (F := Ideal) x0⟩, ⟨S2x32x1x256x512, val_main_v17 (F := Ideal) x0⟩, ⟨S2x32x1x256x512, val_main_v18 (F := Ideal) x0⟩] : List ((s : Shape) × (s.Idx → EReal)))
      _ (idx_main_v22 i ⟨$K, by decide⟩) $K (by show $K < 9; decide) S2x32x1x256x512
      ($v1 (F := Ideal) x0) rfl rfl $K rfl (ix5 (i 0) (i 1) (0 : Fin 1) (i 2) (i 3)) (fun b hb => ?_) rfl).trans ?_
  · match b with
    | ⟨0, _⟩ => rfl
    | ⟨1, _⟩ => rfl
    | ⟨2, _⟩ => exact absurd rfl hb
    | ⟨3, _⟩ => rfl
    | ⟨4, _⟩ => rfl
  · rw [$a1:ident, $a0:ident]
    exact congrArg (val_main_v0 (F := Ideal) x0) (padAt_of_offsets _ _ _ _ _ $K $O1 $O2 rfl (by decide) (by decide) _ rfl rfl
      (by first | rfl | exact (Nat.zero_add _).symm) (by first | rfl | exact (Nat.zero_add _).symm))))

/-- The stacked neighbours at tap `k` of a pixel: the padded array at the tap's neighbour. -/
theorem stack_apply (x0 : FVec Ideal S2x32x256x512 .f32) (i : S2x32x256x512.Idx) (k : Fin 9) :
    val_main_v19 (F := Ideal) x0 (idx_main_v22 i k)
      = val_main_v0 (F := Ideal) x0 (padAt (i 0) (i 1) (i 2) (i 3) k) := by
  unfold val_main_v19
  match k with
  | ⟨0, _⟩ => stack_case 0 0 0 val_main_v10 val_main_v10_apply val_main_v1_apply
  | ⟨1, _⟩ => stack_case 1 0 1 val_main_v11 val_main_v11_apply val_main_v2_apply
  | ⟨2, _⟩ => stack_case 2 0 2 val_main_v12 val_main_v12_apply val_main_v3_apply
  | ⟨3, _⟩ => stack_case 3 1 0 val_main_v13 val_main_v13_apply val_main_v4_apply
  | ⟨4, _⟩ => stack_case 4 1 1 val_main_v14 val_main_v14_apply val_main_v5_apply
  | ⟨5, _⟩ => stack_case 5 1 2 val_main_v15 val_main_v15_apply val_main_v6_apply
  | ⟨6, _⟩ => stack_case 6 2 0 val_main_v16 val_main_v16_apply val_main_v7_apply
  | ⟨7, _⟩ => stack_case 7 2 1 val_main_v17 val_main_v17_apply val_main_v8_apply
  | ⟨8, _⟩ => stack_case 8 2 2 val_main_v18 val_main_v18_apply val_main_v9_apply

/-- The taps viewed `[2, 32, 9, 256, 512]` at `(b, c, k, h, w)`: the tap array at `(b, 9·c + k, h, w)`. -/
theorem taps_apply (i : S2x32x256x512.Idx) (k : Fin 9) :
    idx_main_v20 (idx_main_v22 i k) = tapAt (i 0) (i 1) (i 2) (i 3) k := by
  have h0 : (i 0).val < 2 := (i 0).isLt
  have h1 : (i 1).val < 32 := (i 1).isLt
  have h2 : (i 2).val < 256 := (i 2).isLt
  have h3 : (i 3).val < 512 := (i 3).isLt
  have hk : k.val < 9 := k.isLt
  refine tapAt_eq _ _ _ _ _ _ ?_ ?_ ?_ ?_
  · show (((((i 0).val * 32 + (i 1).val) * 9 + k.val) * 256 + (i 2).val) * 512 + (i 3).val) / 37748736 = (i 0).val
    omega
  · show (((((i 0).val * 32 + (i 1).val) * 9 + k.val) * 256 + (i 2).val) * 512 + (i 3).val) / 131072 % 288 = 9 * (i 1).val + k.val
    omega
  · show (((((i 0).val * 32 + (i 1).val) * 9 + k.val) * 256 + (i 2).val) * 512 + (i 3).val) / 512 % 256 = (i 2).val
    omega
  · show (((((i 0).val * 32 + (i 1).val) * 9 + k.val) * 256 + (i 2).val) * 512 + (i 3).val) % 512 = (i 3).val
    omega

/-- The reference's result is the convolution of its padded input with the tap array. -/
theorem ref_eq (x0 : FVec Ideal S2x32x256x512 .f32) (x1 : FVec Ideal S2x288x256x512 .f32) :
    val_main_v22 (F := Ideal) x0 x1 = conv (val_main_v0 (F := Ideal) x0) x1 := by
  funext i
  show val_main_v22 (F := Ideal) x0 x1 i
    = ∑ k : Fin 9, val_main_v0 (F := Ideal) x0 (padAt (i 0) (i 1) (i 2) (i 3) k) * x1 (tapAt (i 0) (i 1) (i 2) (i 3) k)
  rw [val_main_v22_apply]
  have hc : val_main_cst (F := Ideal) (Shape.Idx.first h_S_) = 0 := Ideal.ofBits_zero_f32
  rw [hc, zero_add]
  refine Finset.sum_congr rfl fun k _ => ?_
  rw [val_main_v21_apply, val_main_v20_apply, stack_apply, taps_apply]
  rfl

end Cert.ReferenceIdeal.RefConv

end
-- ==== Proof.KernelConv.lean ====
/-
  From the kernel's blocks to its result array.

  The grid has one point per batch entry `b` and pair of channels `g` (2 × 16 points). At the point `(b, g)` the padded-input
  window holds planes `2g, 2g + 1` of batch entry `b` of the padded array, whole; the tap window holds planes
  `18g … 18g + 17` of the tap array; the output window is planes `2g, 2g + 1` of the result. So the block element
  `(0, p, r, s)` of the output is the array element `(b, 2g + p, r, s)`, the padded block's `(0, p, r', s')` is the padded
  array's `(b, 2g + p, r', s')`, and the tap block's plane `9p + k` is the tap array's plane `18g + 9p + k = 9·(2g + p) + k`:
  what a point writes back is its block of the convolution of the two arrays. The 32 blocks tile the result array, so the
  array ends holding the convolution.

  The padded array is what the host operations before the region leave: the input padded with the integer zero
  converted to a float, the same term the reference pads with.
-/
import proofs.«136646_j7086696038450_1_alg».proof.Proof.Gen.KernelIdeal.Value
import proofs.«136646_j7086696038450_1_alg».proof.Proof.BlockTaps
import proofs.«136646_j7086696038450_1_alg».proof.Proof.TapSum
import Idealize.ShloMosaic.Lib.Pipeline.Value
import Idealize.ShloMosaic.Lib.StableHlo.Run
import Idealize.ShloMosaic.Lib.Tactic

noncomputable section

namespace Cert.KernelIdeal.Conv

open Cert.KernelIdeal Cert.KernelIdeal.Gen Cert.KernelIdeal.Value Cert.KernelIdeal.Block Cert.LocalConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The input with one pixel of the converted integer zero on each side of both spatial axes. -/
def padded (x : FVec Ideal S2x32x256x512 .f32) : FVec Ideal S2x32x258x514 .f32 :=
  pad S2x32x258x514 ![0, 0, 1, 1] ![0, 0, 1, 1] ![0, 0, 0, 0] x (sitofp (F := Ideal) .f32 (constantI S_ 32 0#32))
    pads_S2x32x256x512_S2x32x258x514_000_000_110_110 h_S_

/-- The region finds the padded array in the first window's buffer. -/
theorem V_padded (c : Dev nD) :
    (V m c main_v0 : S2x32x258x514.Idx → EReal) = padded (m ((c : Thread nD τ).loc main_arg0)) := by
  unfold padded
  dsimp only [Gen.V]
  simp only [Gen.hostOps0, Gen.hostOps0_1, List.flatten_cons, List.flatten_nil, List.append_nil, List.cons_append,
    List.nil_append]
  after_results
  rfl

/-- The three index maps over the grid: the two inputs' blocks move with the output's on the batch and channel axes
    and stay at the origin on the spatial axes. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 1 ∧ win0_2.index t (1 : Fin 4) ≤ 15 :=
  (by decide +kernel : ∀ t : Fin grid0.N, _)

/-- Every batch entry and channel pair is some point's. -/
theorem idx_onto : ∀ (q0 : Fin 2) (q1 : Fin 16), ∃ t : Fin cfg0.N, win0_2.index t = ![q0.val, q1.val, 0, 0] :=
  (by decide +kernel : ∀ (q0 : Fin 2) (q1 : Fin 16), ∃ t : Fin grid0.N, win0_2.index t = ![q0.val, q1.val, 0, 0])

/-- A product of an element of the padded array and an element of the tap array, at equal indices. -/
theorem prod_congr (A : S2x32x258x514.Idx → EReal) (B : S2x288x256x512.Idx → EReal) {a a' : S2x32x258x514.Idx}
    {b b' : S2x288x256x512.Idx} (ha : a = a') (hb : b = b') : A a * B b = A a' * B b' := by rw [ha, hb]

/-- What point `t` writes back is its block of the convolution of the padded array with the tap array. -/
theorem flushed_eq (c : Dev nD) (t : Fin cfg0.N) :
    (dats m 0 c).flushed 2 t
      = ((cfg0.win 2).blk t).view.read (Elt Ideal) (conv (V m c main_v0) (V m c main_arg1)) := by
  show (cfg0.win 2).cut (grid0.coords t) ((dats m 0 c).after 2 t) = _
  rw [after0_2, out_eq]
  obtain ⟨e00, e01, e02, e03, e10, e11, e12, e13, e22, e23, b0, b1⟩ := idx_facts t
  funext y
  have y0 : (y 0).val = 0 := by have : (y 0).val < 1 := (y 0).isLt; omega
  have hy : y = ix4 (0 : Fin 1) (y 1) (y 2) (y 3) := by
    funext a
    match a with
    | ⟨0, _⟩ => exact Fin.ext y0
    | ⟨1, _⟩ => rfl
    | ⟨2, _⟩ => rfl
    | ⟨3, _⟩ => rfl
  show k0_pay1 (F := Ideal) (k0_pay4 (iblk m c 0 t) (iblk m c 1 t)) (k0_pay5 (iblk m c 0 t)) (k0_pay6 (iblk m c 1 t)) y
    = conv (V m c main_v0) (V m c main_arg1) (((cfg0.win 2).blk t).view.emb y)
  refine (congrArg (k0_pay1 (F := Ideal) (k0_pay4 (iblk m c 0 t) (iblk m c 1 t)) (k0_pay5 (iblk m c 0 t)) (k0_pay6 (iblk m c 1 t))) hy).trans ?_
  refine (block_apply (iblk m c 0 t) (iblk m c 1 t) (y 1) (y 2) (y 3)).trans ?_
  refine Finset.sum_congr rfl fun k _ => ?_
  have hk : k.val < 9 := k.isLt
  have hy1 : (y 1).val < 2 := (y 1).isLt
  have hy2 : (y 2).val < 256 := (y 2).isLt
  have hy3 : (y 3).val < 512 := (y 3).isLt
  have hx : ((cfg0.win 0).blk t).view.emb (nbrAt (y 1) (y 2) (y 3) k)
      = padAt ((((cfg0.win 2).blk t).view.emb y) 0) ((((cfg0.win 2).blk t).view.emb y) 1)
          ((((cfg0.win 2).blk t).view.emb y) 2) ((((cfg0.win 2).blk t).view.emb y) 3) k := by
    refine padAt_eq _ _ _ _ _ _ ?_ ?_ ?_ ?_
    · show win0_0.index t (0 : Fin 4) * 1 + 1 * 0 = win0_2.index t (0 : Fin 4) * 1 + 1 * (y 0).val
      omega
    · show win0_0.index t (1 : Fin 4) * 2 + 1 * (y 1).val = win0_2.index t (1 : Fin 4) * 2 + 1 * (y 1).val
      omega
    · show win0_0.index t (2 : Fin 4) * 258 + 1 * ((y 2).val + k.val / 3)
        = win0_2.index t (2 : Fin 4) * 256 + 1 * (y 2).val + k.val / 3
      omega
    · show win0_0.index t (3 : Fin 4) * 514 + 1 * ((y 3).val + k.val % 3)
        = win0_2.index t (3 : Fin 4) * 512 + 1 * (y 3).val + k.val % 3
      omega
  have hw : ((cfg0.win 1).blk t).view.emb (wgtAt (y 1) (y 2) (y 3) k)
      = tapAt ((((cfg0.win 2).blk t).view.emb y) 0) ((((cfg0.win 2).blk t).view.emb y) 1)
          ((((cfg0.win 2).blk t).view.emb y) 2) ((((cfg0.win 2).blk t).view.emb y) 3) k := by
    refine tapAt_eq _ _ _ _ _ _ ?_ ?_ ?_ ?_
    · show win0_1.index t (0 : Fin 4) * 1 + 1 * 0 = win0_2.index t (0 : Fin 4) * 1 + 1 * (y 0).val
      omega
    · show win0_1.index t (1 : Fin 4) * 18 + 1 * (9 * (y 1).val + k.val)
        = 9 * (win0_2.index t (1 : Fin 4) * 2 + 1 * (y 1).val) + k.val
      omega
    · show win0_1.index t (2 : Fin 4) * 256 + 1 * (y 2).val = win0_2.index t (2 : Fin 4) * 256 + 1 * (y 2).val
      omega
    · show win0_1.index t (3 : Fin 4) * 512 + 1 * (y 3).val = win0_2.index t (3 : Fin 4) * 512 + 1 * (y 3).val
      omega
  exact prod_congr (V m c main_v0) (V m c main_arg1) hx hw

/-- An index of the result array is in point `t`'s block iff each coordinate is in the block's range on its axis. -/
theorem mem_blk (t : Fin cfg0.N) (i : S2x32x256x512.Idx) :
    i ∈ ((cfg0.win 2).blk t).view.set ↔ ∀ a : Fin 4, win0_2.index t a * S1x2x256x512.size a ≤ (i a).val
      ∧ (i a).val < win0_2.index t a * S1x2x256x512.size a + S1x2x256x512.size a := by
  show i ∈ ((View.whole main_v1).slice (win0_2.rect t)).set ↔ _
  rw [View.set_slice_whole, Rect.mem_set_unit]
  exact Iff.rfl

/-- The blocks tile the result array: the pixel `(b, c, h, w)` is in the block of the point of batch entry `b` and
    channel pair `c / 2`. -/
theorem cover (i : S2x32x256x512.Idx) :
    ∃ t : Fin cfg0.N, (cfg0.win 2).flush t = true ∧ i ∈ ((cfg0.win 2).blk t).view.set := by
  have hi0 : (i 0).val < 2 := (i 0).isLt
  have hi1 : (i 1).val < 32 := (i 1).isLt
  have hi2 : (i 2).val < 256 := (i 2).isLt
  have hi3 : (i 3).val < 512 := (i 3).isLt
  obtain ⟨t, ht⟩ := idx_onto ⟨(i 0).val, hi0⟩ ⟨(i 1).val / 2, by omega⟩
  have q0 : win0_2.index t (0 : Fin 4) = (i 0).val := congrFun ht 0
  have q1 : win0_2.index t (1 : Fin 4) = (i 1).val / 2 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 2 ≤ (i 1).val ∧ (i 1).val < win0_2.index t (1 : Fin 4) * 2 + 2
    omega
  | ⟨2, _⟩ =>
    show win0_2.index t (2 : Fin 4) * 256 ≤ (i 2).val ∧ (i 2).val < win0_2.index t (2 : Fin 4) * 256 + 256
    omega
  | ⟨3, _⟩ =>
    show win0_2.index t (3 : Fin 4) * 512 ≤ (i 3).val ∧ (i 3).val < win0_2.index t (3 : Fin 4) * 512 + 512
    omega

/-- The result array after the run: the convolution of the padded input with the taps. -/
theorem final (c : Dev nD) :
    (dats m 0 c).arrAt 2 cfg0.N
      = conv (padded (m ((c : Thread nD τ).loc main_arg0))) (m ((c : Thread nD τ).loc main_arg1)) :=
  ((dats m 0 c).arrAt_eq_of_cover 2 (conv (V m c main_v0) (V m c main_arg1)) (fun t _ => flushed_eq m c t) cover).trans
    (congrArg₂ conv (V_padded m c) (V_main_arg1 m c))

/-- The kernel's run, read: the result array at the convolution, the arguments unchanged. -/
theorem run : θ_run defs (onTc (τ := τ) (main (F := Ideal))) ⟨m, fun _ => 0, ρ⟩ fun r => ∀ c : Dev nD,
      r.2.mem ((c : Thread nD τ).loc main_v1)
        = conv (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Conv

end
-- ==== Proof.lean ====
/-
  The per-pixel 3×3 depthwise convolution kernel against its jnp reference: `Cert.Claim`.

  Both programs pad the input `[2, 32, 256, 512]` by one zero pixel on each side of its two spatial axes and compute, at
  every batch entry `b`, channel `c` and pixel `(h, w)`,

      out[b, c, h, w] = Σ_{k < 9} padded[b, c, h + k / 3, w + k % 3] · taps[b, 9·c + k, h, w].

  The kernel walks a grid of 2 × 16 points (a batch entry and a pair of channels each), loads the pair's two padded
  planes and eighteen tap planes whole, and accumulates the nine shifted products from zero, left to right
  (Proof/BlockTaps.lean: the stored block at an index; Proof/KernelConv.lean: the blocks tile the result array). The
  reference stacks the nine shifted slices on a new axis, multiplies by the taps viewed `[2, 32, 9, 256, 512]` and sums
  the new axis from zero (Proof/RefConv.lean). Proof/TapSum.lean names the common function. The two groupings of the nine
  products agree on the extended reals because addition there is associative with unit zero: no finiteness of the
  inputs is used, and the precondition is never opened. The padded arrays are the same term of the input on both sides.

  The three frames are the generated ones (the reference's is its generated run with the result dropped); the ideal pass
  rewrote nothing, so `preserves` is `True`.
-/
import proofs.«136646_j7086696038450_1_alg».proof.Defs
import proofs.«136646_j7086696038450_1_alg».proof.Proof.Gen.Kernel
import proofs.«136646_j7086696038450_1_alg».proof.Proof.Gen.Kernel.Skeleton
import proofs.«136646_j7086696038450_1_alg».proof.Proof.Gen.Kernel.Launch
import proofs.«136646_j7086696038450_1_alg».proof.Proof.Gen.Kernel.Points
import proofs.«136646_j7086696038450_1_alg».proof.Proof.Gen.Kernel.Frame
import proofs.«136646_j7086696038450_1_alg».proof.Proof.Gen.KernelIdeal
import proofs.«136646_j7086696038450_1_alg».proof.Proof.Gen.KernelIdeal.Skeleton
import proofs.«136646_j7086696038450_1_alg».proof.Proof.Gen.KernelIdeal.Launch
import proofs.«136646_j7086696038450_1_alg».proof.Proof.Gen.KernelIdeal.Points
import proofs.«136646_j7086696038450_1_alg».proof.Proof.Gen.KernelIdeal.Frame
import proofs.«136646_j7086696038450_1_alg».proof.Proof.Gen.ReferenceIdeal
import proofs.«136646_j7086696038450_1_alg».proof.Proof.Gen.Pre_finite_inputs
import proofs.«136646_j7086696038450_1_alg».proof.Proof.Gen.KernelIdeal.Value
import proofs.«136646_j7086696038450_1_alg».proof.Proof.Gen.ReferenceIdeal.Run
import proofs.«136646_j7086696038450_1_alg».proof.Proof.Gen.ReferenceIdeal.Read
import proofs.«136646_j7086696038450_1_alg».proof.Proof.TapSum
import proofs.«136646_j7086696038450_1_alg».proof.Proof.BlockTaps
import proofs.«136646_j7086696038450_1_alg».proof.Proof.RefConv
import proofs.«136646_j7086696038450_1_alg».proof.Proof.KernelConv
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the input and on the taps, both programs end with the convolution of the padded input
    with the taps in their result arrays: the kernel block by block, the reference as one sum over the stacked axis. -/
theorem algebraic : Cert.algebraic_KernelIdeal_ReferenceIdeal := by
  intro m ρ m' ρ' _ hagree
  refine ⟨fun c => Cert.LocalConv.conv
      (Cert.KernelIdeal.Conv.padded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefConv.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
